-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) (main_arg1 : FVec F S2x2048x1024 .f32) (main_arg2 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  main_v13
-- ==== Kernel.lean ====
abbrev S2x2048x1024 : Shape := ⟨3, ![2, 2048, 1024]⟩
abbrev S_ : Shape := ⟨0, ![]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 22
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S_, .f32⟩
  | .hbm, ⟨4, _⟩ => ⟨S2x2048x1024, .f32⟩
  | .hbm, ⟨5, _⟩ => ⟨S2x2048x1024, .f32⟩
  | .hbm, ⟨6, _⟩ => ⟨S2x2048x1024, .bf16⟩
  | .hbm, ⟨7, _⟩ => ⟨S2x2048x16x64, .bf16⟩
  | .hbm, ⟨8, _⟩ => ⟨S2x16x2048x64, .bf16⟩
  | .hbm, ⟨9, _⟩ => ⟨S32x2048x64, .bf16⟩
  | .hbm, ⟨10, _⟩ => ⟨S2x2048x1024, .bf16⟩
  | .hbm, ⟨11, _⟩ => ⟨S2x2048x16x64, .bf16⟩
  | .hbm, ⟨12, _⟩ => ⟨S2x16x2048x64, .bf16⟩
  | .hbm, ⟨13, _⟩ => ⟨S32x2048x64, .bf16⟩
  | .hbm, ⟨14, _⟩ => ⟨S2x2048x1024, .bf16⟩
  | .hbm, ⟨15, _⟩ => ⟨S2x2048x16x64, .bf16⟩
  | .hbm, ⟨16, _⟩ => ⟨S2x16x2048x64, .bf16⟩
  | .hbm, ⟨17, _⟩ => ⟨S32x2048x64, .bf16⟩
  | .hbm, ⟨18, _⟩ => ⟨S32x2048x64, .f32⟩
  | .hbm, ⟨19, _⟩ => ⟨S2x16x2048x64, .f32⟩
  | .hbm, ⟨20, _⟩ => ⟨S2x2048x16x64, .f32⟩
  | .hbm, ⟨21, _⟩ => ⟨S2x2048x1024, .f32⟩
  | .local _ .vmem, ⟨0, _⟩ => ⟨S1x512x64, .bf16⟩
  | .local _ .vmem, ⟨1, _⟩ => ⟨S1x512x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x512x64, .f32⟩
  | .local _ .vmem, ⟨7, _⟩ => ⟨S1x512x64, .f32⟩
  | .local _ .vmem, ⟨8, _⟩ => ⟨S512x1, .f32⟩
  | .local _ .vmem, ⟨9, _⟩ => ⟨S512x1, .f32⟩
  | .local _ .vmem, ⟨10, _⟩ => ⟨S512x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S2x2048x1024 : S_.BroadcastsInDim S2x2048x1024 (![] : Fin 0 → Fin S2x2048x1024.rank)
  bitsLt_bf16_f32 : FTy.bits .bf16 < FTy.bits .f32
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .bf16 = 32 ∨ (Rect.block (s := S32x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S32x2048x64.size a
  hwx0_1 : ∀ i : grid0.Coords, EltTy.bits .bf16 = 32 ∨ (Rect.block (s := S32x2048x64) S1x512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .bf16 = 32 ∨ (Rect.block (s := S32x2048x64) S1x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v5) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x16x64, .f32⟩
  | .hbm, ⟨4, _⟩ => ⟨S2x16x2048x64, .f32⟩
  | .hbm, ⟨5, _⟩ => ⟨S2x2048x16x64, .f32⟩
  | .hbm, ⟨6, _⟩ => ⟨S2x16x2048x64, .f32⟩
  | .hbm, ⟨7, _⟩ => ⟨S2x2048x16x64, .f32⟩
  | .hbm, ⟨8, _⟩ => ⟨S2x16x2048x64, .f32⟩
  | .hbm, ⟨9, _⟩ => ⟨S2x16x2048x2048, .f32⟩
  | .hbm, ⟨10, _⟩ => ⟨S_, .f32⟩
  | .hbm, ⟨11, _⟩ => ⟨S2x16x2048x2048, .f32⟩
  | .hbm, ⟨12, _⟩ => ⟨S2x16x2048x2048, .f32⟩
  | .hbm, ⟨13, _⟩ => ⟨S_, .f32⟩
  | .hbm, ⟨14, _⟩ => ⟨S2x16x2048, .f32⟩
  | .hbm, ⟨15, _⟩ => ⟨S_, .f32⟩
  | .hbm, ⟨16, _⟩ => ⟨S2x16x2048, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x2048, .f32⟩
  | .hbm, ⟨22, _⟩ => ⟨S_, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x64, .f32⟩
  | .hbm, ⟨28, _⟩ => ⟨S2x2048x16x64, .f32⟩
  | .hbm, ⟨29, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BodyPieces.lean ====
import proofs.«124789_j68736656605917_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-!
  What one run of the kernel body leaves behind, as the body's own arithmetic of what it found.

  The body keeps three arrays between grid points: a column of shifts, a column of sums and an array of weighted
  sums. At a point that is neither first nor last of its group of four it loads the three input blocks and the three
  carried arrays and stores the three updated arrays; at the first point of a group it first stores the initial
  arrays and reads those back instead of what was carried; at the last point it also stores the output block, the
  quotient of the two arrays it has just updated. Each lemma below reads one stored array back as the payload term
  of the loaded values.
-/
namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem shiftB_0 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : ¬cond0_1 i)
    (x0 x1 x2 : Vec F S1x512x64 .bf16) (xs0 xs1 : Vec F S512x1 .f32) (xs2 : Vec F S512x64 .f32) :
    sout0_B_0 c i arg3 harg3 arg4 harg4 arg5 harg5 arg6 harg6 arg7 harg7 arg8 harg8 arg9 harg9 hc0 hc1 x0 x1 x2 xs0 xs1 xs2 = k0_pay2 (k0_pay8 x0 x1 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  try sl_unfold_words
  first
    | rw [View.canon_unit_zero hz2]
    | rw [View.canon_cons_unit_zero (S := S512x1) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem sumB_1 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : ¬cond0_1 i)
    (x0 x1 x2 : Vec F S1x512x64 .bf16) (xs0 xs1 : Vec F S512x1 .f32) (xs2 : Vec F S512x64 .f32) :
    sout0_B_1 c i arg3 harg3 arg4 harg4 arg5 harg5 arg6 harg6 arg7 harg7 arg8 harg8 arg9 harg9 hc0 hc1 x0 x1 x2 xs0 xs1 xs2 = k0_pay11 x0 x1 xs0 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  try sl_unfold_words
  first
    | rw [View.canon_unit_zero hz2]
    | rw [View.canon_cons_unit_zero (S := S512x1) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem weightedB_2 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : ¬cond0_1 i)
    (x0 x1 x2 : Vec F S1x512x64 .bf16) (xs0 xs1 : Vec F S512x1 .f32) (xs2 : Vec F S512x64 .f32) :
    sout0_B_2 c i arg3 harg3 arg4 harg4 arg5 harg5 arg6 harg6 arg7 harg7 arg8 harg8 arg9 harg9 hc0 hc1 x0 x1 x2 xs0 xs1 xs2 = k0_pay1 (k0_pay12 x0 x1 xs0) (k0_pay13 x0 x1 xs0 xs0 xs2) x2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  try sl_unfold_words
  first
    | rw [View.canon_unit_zero hz2]
    | rw [View.canon_cons_unit_zero (S := S512x64) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem shiftC_0 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : cond0_1 i)
    (x0 x1 x2 : Vec F S1x512x64 .bf16) (xs0 xs1 : Vec F S512x1 .f32) (xs2 : Vec F S512x64 .f32) :
    sout0_C_0 c i arg3 harg3 arg4 harg4 arg5 harg5 arg6 harg6 arg7 harg7 arg8 harg8 arg9 harg9 hc0 hc1 x0 x1 x2 xs0 xs1 xs2 = k0_pay2 (k0_pay8 x0 x1 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  try sl_unfold_words
  first
    | rw [View.canon_unit_zero hz2]
    | rw [View.canon_cons_unit_zero (S := S512x1) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem sumC_1 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : cond0_1 i)
    (x0 x1 x2 : Vec F S1x512x64 .bf16) (xs0 xs1 : Vec F S512x1 .f32) (xs2 : Vec F S512x64 .f32) :
    sout0_C_1 c i arg3 harg3 arg4 harg4 arg5 harg5 arg6 harg6 arg7 harg7 arg8 harg8 arg9 harg9 hc0 hc1 x0 x1 x2 xs0 xs1 xs2 = k0_pay11 x0 x1 xs0 xs0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  try sl_unfold_words
  first
    | rw [View.canon_unit_zero hz2]
    | rw [View.canon_cons_unit_zero (S := S512x1) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem weightedC_2 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : cond0_1 i)
    (x0 x1 x2 : Vec F S1x512x64 .bf16) (xs0 xs1 : Vec F S512x1 .f32) (xs2 : Vec F S512x64 .f32) :
    sout0_C_2 c i arg3 harg3 arg4 harg4 arg5 harg5 arg6 harg6 arg7 harg7 arg8 harg8 arg9 harg9 hc0 hc1 x0 x1 x2 xs0 xs1 xs2 = k0_pay1 (k0_pay12 x0 x1 xs0) (k0_pay13 x0 x1 xs0 xs0 xs2) x2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  try sl_unfold_words
  first
    | rw [View.canon_unit_zero hz2]
    | rw [View.canon_cons_unit_zero (S := S512x64) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem quotientC_3 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond0_0 i) (hc1 : cond0_1 i)
    (x0 x1 x2 : Vec F S1x512x64 .bf16) (xs0 xs1 : Vec F S512x1 .f32) (xs2 : Vec F S512x64 .f32) :
    out0_C_3 c i arg3 harg3 arg4 harg4 arg5 harg5 arg6 harg6 arg7 harg7 arg8 harg8 arg9 harg9 hc0 hc1 x0 x1 x2 xs0 xs1 xs2 = k0_pay3 (k0_pay1 (k0_pay12 x0 x1 xs0) (k0_pay13 x0 x1 xs0 xs0 xs2) x2) (k0_pay11 x0 x1 xs0 xs0 xs1) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  try sl_unfold_words
  first
    | rw [View.canon_unit_zero hz3]
    | rw [View.canon_cons_unit_zero (S := S1x512x64) hz3]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem shiftA_0 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0_0 i) (hc1 : ¬cond0_1 i)
    (x0 x1 x2 : Vec F S1x512x64 .bf16) :
    sout0_A_0 c i arg3 harg3 arg4 harg4 arg5 harg5 arg6 harg6 arg7 harg7 arg8 harg8 arg9 harg9 hc0 hc1 x0 x1 x2 = k0_pay2 (k0_pay8 x0 x1 k0_pay4) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  try sl_unfold_words
  first
    | rw [View.canon_unit_zero hz2]
    | rw [View.canon_cons_unit_zero (S := S512x1) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem sumA_1 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0_0 i) (hc1 : ¬cond0_1 i)
    (x0 x1 x2 : Vec F S1x512x64 .bf16) :
    sout0_A_1 c i arg3 harg3 arg4 harg4 arg5 harg5 arg6 harg6 arg7 harg7 arg8 harg8 arg9 harg9 hc0 hc1 x0 x1 x2 = k0_pay11 x0 x1 k0_pay4 k0_pay4 k0_pay5 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  try sl_unfold_words
  first
    | rw [View.canon_unit_zero hz2]
    | rw [View.canon_cons_unit_zero (S := S512x1) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

theorem weightedA_2 (c : Dev nD) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond0_0 i) (hc1 : ¬cond0_1 i)
    (x0 x1 x2 : Vec F S1x512x64 .bf16) :
    sout0_A_2 c i arg3 harg3 arg4 harg4 arg5 harg5 arg6 harg6 arg7 harg7 arg8 harg8 arg9 harg9 hc0 hc1 x0 x1 x2 = k0_pay1 (k0_pay12 x0 x1 k0_pay4) (k0_pay13 x0 x1 k0_pay4 k0_pay4 k0_pay6) x2 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  try sl_unfold_words
  first
    | rw [View.canon_unit_zero hz2]
    | rw [View.canon_cons_unit_zero (S := S512x64) hz2]
  try simp only [View.readCov_unit_zero (S := S512x1) _ hz2, View.readCov_unit_zero (S := S512x64) _ hz2]
  simp only [View.readAt_eq_ld, harg3.read_unread, harg4.read_unread, harg5.read_unread, harg7.read_unread, harg8.read_unread, harg9.read_unread,
    View.ld_unit_zero (S := S1x512x64) hz3, View.ld_unit_zero (S := S512x1) hz2, View.ld_unit_zero (S := S512x64) hz2]

end Cert.KernelIdeal.Pieces
end
-- ==== Proof.CarriedState.lean ====
/-
  The carried arrays over a group of four grid points.

  The grid's last axis runs over the four key/value blocks of one (head, query block) pair, so the points come in
  groups of four consecutive positions 4g, 4g+1, 4g+2, 4g+3. The first point of a group starts from the initial
  arrays, each later point absorbs its blocks into what the point before left, and the last point writes out the
  quotient. Because the first point ignores whatever was carried into it, what the last point of a group writes
  depends on that group's four points only: it is the initial state with the four points' blocks absorbed in order.
-/
import proofs.«124789_j68736656605917_2_alg».proof.Proof.BodyPieces

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ)

/-- The three carried arrays: shifts, sums, weighted sums. -/
abbrev St (F : FTy → Type) [FloatOps F] : Type := Vec F S512x1 .f32 × Vec F S512x1 .f32 × Vec F S512x64 .f32

/-- One point's blocks (query, key, value) absorbed into the carried arrays. -/
def absorb (q k v : Vec F S1x512x64 .bf16) (st : St F) : St F :=
  (k0_pay2 (k0_pay8 q k st.1), k0_pay11 q k st.1 st.1 st.2.1,
    k0_pay1 (k0_pay12 q k st.1) (k0_pay13 q k st.1 st.1 st.2.2) v)

/-- The arrays a group starts from. -/
def fresh : St F := (k0_pay4, k0_pay5, k0_pay6)

/-- The block a group's last point writes out. -/
def emit (st : St F) : Vec F S1x512x64 .f32 := k0_pay3 st.2.2 st.2.1

/-- The position before a grid position is a grid position. -/
theorem lt_pred {n : ℕ} (hn : n < cfg0.N) : n - 1 < cfg0.N := Nat.lt_of_le_of_lt (Nat.sub_le _ _) hn

/-- After a group's first point: its blocks absorbed into the initial arrays. -/
theorem carried_first (c : Dev nD) (n : ℕ) (hn : n < cfg0.N) (h0 : n % 4 = 0) :
    (outsAt0 m c n hn).2 = absorb (iblk m c 0 ⟨n, hn⟩) (iblk m c 1 ⟨n, hn⟩) (iblk m c 2 ⟨n, hn⟩) fresh := by
  have h1 : ¬n % 4 = 3 := by omega
  rw [show outsAt0 m c n hn = outsAt0 m c (⟨n, hn⟩ : Fin cfg0.N).val (⟨n, hn⟩ : Fin cfg0.N).isLt from rfl,
    outsAt0_A m c ⟨n, hn⟩ h0 h1]
  dsimp only
  rw [Pieces.shiftA_0, Pieces.sumA_1, Pieces.weightedA_2]
  rfl

/-- After a middle point: its blocks absorbed into what the point before left. -/
theorem carried_next (c : Dev nD) (n : ℕ) (hn : n < cfg0.N) (h0 : ¬n % 4 = 0) (h1 : ¬n % 4 = 3) :
    (outsAt0 m c n hn).2 = absorb (iblk m c 0 ⟨n, hn⟩) (iblk m c 1 ⟨n, hn⟩) (iblk m c 2 ⟨n, hn⟩) (outsAt0 m c (n - 1) (lt_pred hn)).2 := by
  rw [show outsAt0 m c n hn = outsAt0 m c (⟨n, hn⟩ : Fin cfg0.N).val (⟨n, hn⟩ : Fin cfg0.N).isLt from rfl,
    outsAt0_B m c ⟨n, hn⟩ h0 h1]
  dsimp only
  rw [Pieces.shiftB_0, Pieces.sumB_1, Pieces.weightedB_2]
  rfl

/-- What a group's last point writes out: the quotient of its blocks absorbed into what the point before left. -/
theorem out_last (c : Dev nD) (n : ℕ) (hn : n < cfg0.N) (h1 : n % 4 = 3) :
    (outsAt0 m c n hn).1 = emit (absorb (iblk m c 0 ⟨n, hn⟩) (iblk m c 1 ⟨n, hn⟩) (iblk m c 2 ⟨n, hn⟩) (outsAt0 m c (n - 1) (lt_pred hn)).2) := by
  have h0 : ¬n % 4 = 0 := by omega
  rw [show outsAt0 m c n hn = outsAt0 m c (⟨n, hn⟩ : Fin cfg0.N).val (⟨n, hn⟩ : Fin cfg0.N).isLt from rfl,
    outsAt0_C m c ⟨n, hn⟩ h0 h1]
  dsimp only
  rw [Pieces.quotientC_3]
  rfl

/-- What a group's last point writes out, in that group's four points alone. -/
theorem out_group (c : Dev nD) (n : ℕ) (hn : n < cfg0.N) (h : n % 4 = 3) :
    (outsAt0 m c n hn).1
      = emit (absorb (iblk m c 0 ⟨n, hn⟩) (iblk m c 1 ⟨n, hn⟩) (iblk m c 2 ⟨n, hn⟩)
          (absorb (iblk m c 0 ⟨n - 1, lt_pred hn⟩) (iblk m c 1 ⟨n - 1, lt_pred hn⟩) (iblk m c 2 ⟨n - 1, lt_pred hn⟩)
            (absorb (iblk m c 0 ⟨n - 1 - 1, lt_pred (lt_pred hn)⟩) (iblk m c 1 ⟨n - 1 - 1, lt_pred (lt_pred hn)⟩) (iblk m c 2 ⟨n - 1 - 1, lt_pred (lt_pred hn)⟩)
              (absorb (iblk m c 0 ⟨n - 1 - 1 - 1, lt_pred (lt_pred (lt_pred hn))⟩) (iblk m c 1 ⟨n - 1 - 1 - 1, lt_pred (lt_pred (lt_pred hn))⟩) (iblk m c 2 ⟨n - 1 - 1 - 1, lt_pred (lt_pred (lt_pred hn))⟩) fresh)))) := by
  rw [out_last m c n hn h,
    carried_next m c (n - 1) (lt_pred hn) (by omega) (by omega),
    carried_next m c (n - 1 - 1) (lt_pred (lt_pred hn)) (by omega) (by omega),
    carried_first m c (n - 1 - 1 - 1) (lt_pred (lt_pred (lt_pred hn))) (by omega)]

end Cert.KernelIdeal.Carried

end
-- ==== Proof.LibTransposedMatmul.lean ====
/-
  A matrix product with the right operand contracted on its LAST axis, read at an entry. For an M×K left operand and an
  N×K right operand (left axis 1 against right axis 1, no batch axis) the exact product into a zero accumulator has, at
  row r and column c, the value  Σ_k lhs(r, k) · rhs(c, k): the operand indices at output index (r, c) and contraction
  position k are (r, k) and (c, k). This is the product  A · Bᵀ.
-/
import Idealize.ShloMosaic.PureOps.Ideal.Laws
import Idealize.ShloMosaic.Lib.ValueIdx

noncomputable section

namespace TransposedMatmul

open Idealize.ShloMosaic Idealize.ShloMosaic.ValueIdx

variable {M K N : ℕ}

/-- The left operand's row is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The product into the zero accumulator, at (r, c), is Σ_k lhs(r, k) · rhs(c, k). -/
theorem apply_zero {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhs_row _ _
      | ⟨1, _⟩ => exact ((DotDims.transposedRhs M K N).rhsIdx_val_of_single rfl _ _).trans hk)
  rw [el, er]

end TransposedMatmul

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LibOnlineSoftmax.lean ====
/-
  The running softmax of one row, on the extended reals.

  A row of scores arrives in blocks. The running state is a triple (m, l, a): a shift m, the sum l of the
  exponentials of the scores seen so far taken relative to m, and the sum a of those exponentials weighted by
  the values that go with the scores. A new block (s, v) moves the shift to m' = max m (max of s), rescales l
  and a by exp (m − m') and adds the block's own exponentials relative to m'. The state starts at (−∞, 0, 0) and
  the row's result is a / l.

  When every score and value is a real number, the state after at least one block is
      (M, exp (−M) · E, exp (−M) · W)   for SOME real M,
  where E is the sum of exp s and W the sum of exp s · v over everything seen: the step keeps this form
  whatever M is, because exp (M − M') · exp (−M) = exp (−M') and exp (s − M') = exp (−M') · exp s. Hence
  a / l = W / E, the shift cancelling since E > 0. The one-pass softmax — every exponential taken relative to
  one common real shift, each weight divided by 0 + the sum of all of them — is W / E as well, so the two
  agree; and a sum over 4·n scores is the sum over 4 blocks of n.
-/
import Mathlib
import Idealize.ShloMosaic.PureOps.Ideal
import proofs.«124789_j68736656605917_2_alg».proof.Proof.LibSoftmaxShift
import proofs.«124789_j68736656605917_2_alg».proof.Proof.LibBlockSums

noncomputable section

namespace OnlineSoftmax

open Idealize.ShloMosaic
open scoped BigOperators

variable {n : ℕ}

/-- The new shift: the old one against the block's maximum (a fold of max from −∞). -/
def stepM (m : EReal) (s : Fin n → EReal) : EReal := max m ((Finset.univ : Finset (Fin n)).fold max ⊥ s)

/-- The new sum of exponentials: the old one rescaled, plus the block's. -/
def stepL (m l : EReal) (s : Fin n → EReal) : EReal :=
  Ideal.exp (m - stepM m s) * l + ∑ c : Fin n, Ideal.exp (s c - stepM m s)

/-- The new weighted sum: the old one rescaled, plus the block's exponentials times its values. -/
def stepA (m a : EReal) (s v : Fin n → EReal) : EReal :=
  Ideal.exp (m - stepM m s) * a + ∑ c : Fin n, Ideal.exp (s c - stepM m s) * v c

/-- One block absorbed into the state (m, l, a). -/
def step (st : EReal × EReal × EReal) (s v : Fin n → EReal) : EReal × EReal × EReal :=
  (stepM st.1 s, stepL st.1 st.2.1 s, stepA st.1 st.2.2 s v)

/-- The state before any block. -/
def init : EReal × EReal × EReal := (⊥, 0, 0)

/-- Four blocks absorbed in order. -/
def run4 (s v : Fin 4 → Fin n → EReal) : EReal × EReal × EReal :=
  step (step (step (step init (s 0) (v 0)) (s 1) (v 1)) (s 2) (v 2)) (s 3) (v 3)

/-- The row's result: the weighted sum over the sum. -/
def out (st : EReal × EReal × EReal) : EReal := Ideal.div st.2.2 st.2.1

/-- The state has seen real scores with exponential sum `E` and weighted sum `W`, relative to some real shift. -/
def Seen (st : EReal × EReal × EReal) (E W : ℝ) : Prop :=
  ∃ M : ℝ, st = ((M : EReal), ((Real.exp (-M) * E : ℝ) : EReal), ((Real.exp (-M) * W : ℝ) : EReal))

theorem sum_exp_rel (s : Fin n → ℝ) (M : ℝ) :
    ∑ c : Fin n, Ideal.exp (((s c : ℝ) : EReal) - (M : EReal)) = ((Real.exp (-M) * ∑ c : Fin n, Real.exp (s c) : ℝ) : EReal) := by
  simp only [← EReal.coe_sub, Ideal.exp_coe, Cert.LibSoftmaxShift.coe_sum]
  congr 1
  rw [Finset.mul_sum]
  exact Finset.sum_congr rfl fun c _ => by rw [sub_eq_add_neg, Real.exp_add, mul_comm]

theorem sum_exp_rel_mul (s v : Fin n → ℝ) (M : ℝ) :
    ∑ c : Fin n, Ideal.exp (((s c : ℝ) : EReal) - (M : EReal)) * ((v c : ℝ) : EReal)
      = ((Real.exp (-M) * ∑ c : Fin n, Real.exp (s c) * v c : ℝ) : EReal) := by
  simp only [← EReal.coe_sub, Ideal.exp_coe, ← EReal.coe_mul, Cert.LibSoftmaxShift.coe_sum]
  congr 1
  rw [Finset.mul_sum]
  exact Finset.sum_congr rfl fun c _ => by rw [sub_eq_add_neg, Real.exp_add]; ring

/-- The first block: from (−∞, 0, 0) the old sums contribute nothing. -/
theorem seen_init (hn : 0 < n) (s v : Fin n → ℝ) :
    Seen (step init (fun c => ((s c : ℝ) : EReal)) (fun c => ((v c : ℝ) : EReal)))
      (∑ c : Fin n, Real.exp (s c)) (∑ c : Fin n, Real.exp (s c) * v c) := by
  obtain ⟨r, hr⟩ := Cert.LibSoftmaxShift.fold_max_real hn (fun c => ((s c : ℝ) : EReal)) (fun c => ⟨s c, rfl⟩)
  have hM : stepM (⊥ : EReal) (fun c => ((s c : ℝ) : EReal)) = (r : EReal) := by
    unfold stepM; rw [hr]; exact max_eq_right bot_le
  refine ⟨r, ?_⟩
  unfold step init
  dsimp only
  unfold stepL stepA
  rw [hM, sum_exp_rel, sum_exp_rel_mul, EReal.bot_sub, Ideal.exp_bot, mul_zero, zero_add, zero_add]

/-- A further block keeps the form, whatever the shifts are. -/
theorem seen_step (hn : 0 < n) (st : EReal × EReal × EReal) (E W : ℝ) (h : Seen st E W) (s v : Fin n → ℝ) :
    Seen (step st (fun c => ((s c : ℝ) : EReal)) (fun c => ((v c : ℝ) : EReal)))
      (E + ∑ c : Fin n, Real.exp (s c)) (W + ∑ c : Fin n, Real.exp (s c) * v c) := by
  obtain ⟨M, rfl⟩ := h
  obtain ⟨r, hr⟩ := Cert.LibSoftmaxShift.fold_max_real hn (fun c => ((s c : ℝ) : EReal)) (fun c => ⟨s c, rfl⟩)
  have hM : stepM (M : EReal) (fun c => ((s c : ℝ) : EReal)) = ((max M r : ℝ) : EReal) := by
    unfold stepM; rw [hr]; exact (EReal.coe_strictMono.monotone.map_max).symm
  refine ⟨max M r, ?_⟩
  unfold step
  dsimp only
  unfold stepL stepA
  rw [hM, sum_exp_rel, sum_exp_rel_mul, ← EReal.coe_sub, Ideal.exp_coe, ← EReal.coe_mul, ← EReal.coe_mul,
    ← EReal.coe_add, ← EReal.coe_add]
  have e : Real.exp (M - max M r) * Real.exp (-M) = Real.exp (-(max M r)) := by
    rw [← Real.exp_add]; congr 1; ring
  refine Prod.ext rfl (Prod.ext ?_ ?_)
  · show ((_ : ℝ) : EReal) = ((_ : ℝ) : EReal)
    congr 1
    rw [← mul_assoc, e]; ring
  · show ((_ : ℝ) : EReal) = ((_ : ℝ) : EReal)
    congr 1
    rw [← mul_assoc, e]; ring

/-- The result of a state that has seen (E, W), E positive, is W / E: the shift cancels. -/
theorem out_of_seen (st : EReal × EReal × EReal) (E W : ℝ) (h : Seen st E W) (hE : 0 < E) :
    out st = ((W / E : ℝ) : EReal) := by
  obtain ⟨M, rfl⟩ := h
  unfold out
  dsimp only
  have hx : Real.exp (-M) * E ≠ 0 := mul_ne_zero (Real.exp_pos _).ne' hE.ne'
  rw [Ideal.div_coe hx, ← EReal.coe_mul]
  congr 1
  have := (Real.exp_pos (-M)).ne'
  field_simp

/-- Four real blocks: the result is the exponential-weighted mean of the values over all four. -/
theorem out_run4 (hn : 0 < n) (s v : Fin 4 → Fin n → ℝ) :
    out (run4 (fun j c => ((s j c : ℝ) : EReal)) (fun j c => ((v j c : ℝ) : EReal)))
      = (((∑ j : Fin 4, ∑ c : Fin n, Real.exp (s j c) * v j c) / (∑ j : Fin 4, ∑ c : Fin n, Real.exp (s j c)) : ℝ) : EReal) := by
  have h4 := seen_step hn _ _ _ (seen_step hn _ _ _ (seen_step hn _ _ _ (seen_init hn (s 0) (v 0)) (s 1) (v 1)) (s 2) (v 2)) (s 3) (v 3)
  have hpos : ∀ j : Fin 4, 0 < ∑ c : Fin n, Real.exp (s j c) := fun j =>
    Finset.sum_pos (fun _ _ => Real.exp_pos _) ⟨⟨0, hn⟩, Finset.mem_univ _⟩
  rw [Fin.sum_univ_four, Fin.sum_univ_four]
  exact out_of_seen _ _ _ h4 (by have := hpos 0; have := hpos 1; have := hpos 2; have := hpos 3; positivity)

/-- The one-pass softmax-weighted sum over real scores, every exponential relative to one real shift `M` and each
    weight divided by `0 +` the sum of all of them, is the same exponential-weighted mean. -/
theorem softmax_sum {ι : Type} [Fintype ι] [Nonempty ι] (s v : ι → ℝ) (M : ℝ) :
    ∑ k : ι, Ideal.div (Ideal.exp (((s k : ℝ) : EReal) - (M : EReal))) (0 + ∑ k' : ι, Ideal.exp (((s k' : ℝ) : EReal) - (M : EReal)))
        * ((v k : ℝ) : EReal)
      = (((∑ k : ι, Real.exp (s k) * v k) / (∑ k : ι, Real.exp (s k)) : ℝ) : EReal) := by
  have hpos : (0 : ℝ) < ∑ k : ι, Real.exp (s k) := Finset.sum_pos (fun _ _ => Real.exp_pos _) Finset.univ_nonempty
  simp only [Cert.LibSoftmaxShift.softmax_shift, Ideal.exp_coe, Cert.LibSoftmaxShift.coe_sum, Ideal.div_coe hpos.ne',
    ← EReal.coe_mul]
  congr 1
  rw [Finset.sum_div]
  exact Finset.sum_congr rfl fun k _ => by field_simp

end OnlineSoftmax

end
-- ==== Proof.BodyRows.lean ====
/-
  The kernel body's arithmetic, row by row, at the exact values.

  One grid point holds a block q of 512 query rows, a block k of 512 key rows and a block v of 512 value rows
  (64 lanes each), and three carried arrays: a column m of 512 shifts, a column l of 512 sums, and a 512 × 64 array
  a of weighted sums. Row r of the body is one step of the running softmax (OnlineSoftmax): its scores are
  s(c) = Σ_d q(r, d) · k(c, d) over the 512 key rows c, its values at lane d are v(c, d);
      the new shift          is  stepM (m r) s,
      the new sum            is  stepL (m r) (l r) s,
      the new weighted sum   is  stepA (m r) (a (r, d)) s (v(·, d)),
  and the block the last step writes out is a (r, d) / l r. The three arrays the first step stores before it
  reads them back hold −∞, 0 and 0: the running softmax's initial state.
-/
import Idealize.ShloMosaic.Lib.ValueLayout
import Idealize.ShloMosaic.Lib.ValueIdx
import Idealize.ShloMosaic.PureOps.Ideal.Laws
import proofs.«124789_j68736656605917_2_alg».proof.Proof.Gen.KernelIdeal.Skeleton
import proofs.«124789_j68736656605917_2_alg».proof.Proof.LibTransposedMatmul
import proofs.«124789_j68736656605917_2_alg».proof.Proof.LibPlainMatmul
import proofs.«124789_j68736656605917_2_alg».proof.Proof.LibKeepdimsColumn
import proofs.«124789_j68736656605917_2_alg».proof.Proof.LibRowReduce
import proofs.«124789_j68736656605917_2_alg».proof.Proof.LibOnlineSoftmax

noncomputable section

namespace Cert.KernelIdeal.Rows

open Cert.KernelIdeal Cert.KernelIdeal.Gen Idealize.ShloMosaic Idealize.ShloMosaic.ValueIdx OnlineSoftmax
open scoped BigOperators

/-- The word 0xFF800000 is −∞. -/
theorem neg_inf_f32 : Ideal.ofBits .f32 0xFF800000#32 = (⊥ : EReal) := by
  simp [Ideal.ofBits, Ideal.ieee]

/-- Row r of the query block against row c of the key block. -/
def score (q k : Vec Ideal S1x512x64 .bf16) (r c : Fin 512) : EReal :=
  ∑ d : Fin 64, q (ix3 (0 : Fin 1) r d) * k (ix3 (0 : Fin 1) c d)

/-- The score matrix: entry (r, c) is the score of query row r against key row c. -/
theorem scores_at (q k : Vec Ideal S1x512x64 .bf16) (r c : Fin 512) :
    k0_pay7 (F := Ideal) q k (ix2 r c) = score q k r c := by
  unfold k0_pay7 score
  refine (TransposedMatmul.apply_zero (M := 512) (K := 64) (N := 512) (φ₁ := .bf16) (φ₂ := .bf16)
    (shapeCast S512x64 q shapeCasts_S1x512x64_S512x64) (shapeCast S512x64 k shapeCasts_S1x512x64_S512x64) r c).trans ?_
  refine Finset.sum_congr rfl fun d _ => ?_
  rw [shapeCast_1ab_ab_apply, shapeCast_1ab_ab_apply]

/-- The new shift at row r. -/
theorem newShift_at (q k : Vec Ideal S1x512x64 .bf16) (m : Vec Ideal S512x1 .f32) (r : Fin 512) :
    k0_pay8 (F := Ideal) q k m (ix2 r (0 : Fin 1)) = stepM (m (ix2 r (0 : Fin 1))) (fun c => score q k r c) := by
  unfold k0_pay8 stepM
  rw [maximumf_apply, KeepdimsColumn.shapeCast_a_a1_apply]
  refine congrArg (max _) ?_
  refine (RowReduce.laneMax_at (a := 512) (b := 512) (k0_pay7 (F := Ideal) q k) 0xFF800000#32 reduces_S512x512_S512 (.inl rfl) rfl r).trans ?_
  rw [neg_inf_f32]
  exact congrArg (Finset.fold max ⊥ · (Finset.univ : Finset (Fin 512))) (funext fun c => scores_at q k r c)

/-- The rescaling factor at row r: exp (old shift − new shift). -/
theorem rescale_at (q k : Vec Ideal S1x512x64 .bf16) (m m' : Vec Ideal S512x1 .f32) (r : Fin 512) :
    k0_pay9 (F := Ideal) q k m m' (ix2 r (0 : Fin 1))
      = Ideal.exp (m' (ix2 r (0 : Fin 1)) - stepM (m (ix2 r (0 : Fin 1))) (fun c => score q k r c)) := by
  unfold k0_pay9
  show FloatOps.exp (FloatOps.subf (m' (ix2 r (0 : Fin 1))) (k0_pay8 (F := Ideal) q k m (ix2 r (0 : Fin 1)))) = _
  rw [newShift_at]
  rfl

/-- The block's exponentials: entry (r, c) is exp (score − new shift of row r). -/
theorem weights_at (q k : Vec Ideal S1x512x64 .bf16) (m : Vec Ideal S512x1 .f32) (r c : Fin 512) :
    k0_pay10 (F := Ideal) q k m (ix2 r c)
      = Ideal.exp (score q k r c - stepM (m (ix2 r (0 : Fin 1))) (fun c => score q k r c)) := by
  unfold k0_pay10
  show FloatOps.exp (FloatOps.subf (k0_pay7 (F := Ideal) q k (ix2 r c))
    (broadcastTo S512x512 (k0_pay8 (F := Ideal) q k m) broadcasts_S512x1_S512x512 (ix2 r c))) = _
  rw [KeepdimsColumn.broadcastTo_a1_ab_apply, newShift_at, scores_at]
  rfl

/-- The new sum at row r. -/
theorem newSum_at (q k : Vec Ideal S1x512x64 .bf16) (m l : Vec Ideal S512x1 .f32) (r : Fin 512) :
    k0_pay11 (F := Ideal) q k m m l (ix2 r (0 : Fin 1))
      = stepL (m (ix2 r (0 : Fin 1))) (l (ix2 r (0 : Fin 1))) (fun c => score q k r c) := by
  unfold k0_pay11 stepL
  rw [shapeCast_self, addf_apply, mulf_apply, rescale_at, KeepdimsColumn.shapeCast_a_a1_apply]
  congr 1
  refine (RowReduce.laneSum_at (a := 512) (b := 512) (k0_pay10 (F := Ideal) q k m) 0x00000000#32 reduces_S512x512_S512 (.inl rfl) rfl r).trans ?_
  exact Finset.sum_congr rfl fun c _ => weights_at q k m r c

/-- The new weighted sum at row r, lane d. -/
theorem newWeighted_at (q k v : Vec Ideal S1x512x64 .bf16) (m : Vec Ideal S512x1 .f32) (a : Vec Ideal S512x64 .f32)
    (r : Fin 512) (d : Fin 64) :
    k0_pay1 (F := Ideal) (k0_pay12 (F := Ideal) q k m) (k0_pay13 (F := Ideal) q k m m a) v (ix2 r d)
      = stepA (m (ix2 r (0 : Fin 1))) (a (ix2 r d)) (fun c => score q k r c) (fun c => v (ix3 (0 : Fin 1) c d)) := by
  unfold k0_pay1 stepA
  rw [shapeCast_self, addf_apply]
  refine congrArg₂ (· + ·) ?_ ?_
  · unfold k0_pay13
    rw [mulf_apply, KeepdimsColumn.broadcastTo_a1_ab_apply, rescale_at]
  · refine (PlainMatmul.apply_zero (M := 512) (K := 512) (N := 64) (φ₁ := .bf16) (φ₂ := .bf16)
      (k0_pay12 (F := Ideal) q k m) (shapeCast S512x64 v shapeCasts_S1x512x64_S512x64) r d).trans ?_
    refine Finset.sum_congr rfl fun c _ => ?_
    rw [shapeCast_1ab_ab_apply]
    unfold k0_pay12
    rw [truncf_apply, weights_at]

/-- The block written out: the weighted sum over the sum, row by row. -/
theorem quotient_at (a : Vec Ideal S512x64 .f32) (l : Vec Ideal S512x1 .f32) (u : Fin 1) (r : Fin 512) (d : Fin 64) :
    k0_pay3 (F := Ideal) a l (ix3 u r d) = Ideal.div (a (ix2 r d)) (l (ix2 r (0 : Fin 1))) := by
  unfold k0_pay3
  rw [shapeCast_ab_1ab_apply, divf_apply, KeepdimsColumn.broadcastTo_a1_ab_apply]

/-- The three arrays the first step stores: −∞ shifts, zero sums, zero weighted sums. -/
theorem initShift_at (j : S512x1.Idx) : k0_pay4 (F := Ideal) j = (⊥ : EReal) := by
  unfold k0_pay4
  rw [shapeCast_self, broadcast_apply]
  exact neg_inf_f32

theorem initSum_at (j : S512x1.Idx) : k0_pay5 (F := Ideal) j = (0 : EReal) := by
  unfold k0_pay5
  rw [shapeCast_self, broadcast_apply]
  exact Ideal.ofBits_zero_f32

theorem initWeighted_at (j : S512x64.Idx) : k0_pay6 (F := Ideal) j = (0 : EReal) := by
  unfold k0_pay6
  rw [shapeCast_self, broadcast_apply]
  exact Ideal.ofBits_zero_f32

end Cert.KernelIdeal.Rows

end
-- ==== Proof.OutputArray.lean ====
/-
  The array the kernel's region leaves: attention, head by head and row by row, as the running softmax.

  The region's three input arrays Q, K, V have shape 32 × 2048 × 64 (head, row, lane). Point t of the grid
  32 × 4 × 4 has head t / 16, query block (t / 4) mod 4 and key/value block t mod 4; its query block is rows
  512·((t / 4) mod 4) … of Q's head and its key and value blocks rows 512·(t mod 4) … of K's and V's. Row r, lane d
  of what the last point of a group writes is the running softmax (OnlineSoftmax.run4) over the four key/value
  blocks of the scores  Σ_e Q(head, row, e) · K(head, 512 j + c, e)  against the values  V(head, 512 j + c, d);
  the 128 groups' blocks tile the 32 × 2048 × 64 output, so the output array is that function at every index.
-/
import proofs.«124789_j68736656605917_2_alg».proof.Proof.CarriedState
import proofs.«124789_j68736656605917_2_alg».proof.Proof.BodyRows
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Output

open Cert.KernelIdeal Cert.KernelIdeal.Gen Cert.KernelIdeal.Rows Idealize.ShloMosaic.ValueIdx OnlineSoftmax
open scoped BigOperators

variable (m : (ℓ : Loc nD τ sig) → Buf (Elt Ideal) ℓ)

/-! ## The carried arrays, row by row -/

/-- Row r, lane d of the carried arrays: a state of the running softmax. -/
def rowState (st : Carried.St Ideal) (r : Fin 512) (d : Fin 64) : EReal × EReal × EReal :=
  (st.1 (ix2 r (0 : Fin 1)), st.2.1 (ix2 r (0 : Fin 1)), st.2.2 (ix2 r d))

/-- Absorbing a point's blocks is one step of the running softmax on every row and lane. -/
theorem row_absorb (q k v : Vec Ideal S1x512x64 .bf16) (st : Carried.St Ideal) (r : Fin 512) (d : Fin 64) :
    rowState (Carried.absorb q k v st) r d
      = step (rowState st r d) (fun c' => score q k r c') (fun c' => v (ix3 (0 : Fin 1) c' d)) := by
  unfold rowState Carried.absorb step
  dsimp only
  rw [newSum_at, newWeighted_at]
  unfold k0_pay2
  rw [shapeCast_self, newShift_at]

/-- The arrays a group starts from are the running softmax's initial state on every row and lane. -/
theorem row_fresh (r : Fin 512) (d : Fin 64) : rowState (Carried.fresh (F := Ideal)) r d = init := by
  unfold rowState Carried.fresh init
  dsimp only
  rw [initShift_at, initSum_at, initWeighted_at]

/-- The block written out is the running softmax's result on every row and lane. -/
theorem emit_at (st : Carried.St Ideal) (u : Fin 1) (r : Fin 512) (d : Fin 64) :
    Carried.emit st (ix3 u r d) = out (rowState st r d) := by
  unfold Carried.emit rowState out
  exact quotient_at st.2.2 st.2.1 u r d

/-! ## The output as one function of the region's input arrays -/

/-- Row c of key/value block j. -/
def kvRow (j : Fin 4) (c : Fin 512) : Fin 2048 := ⟨j.val * 512 + c.val, by have := j.isLt; have := c.isLt; omega⟩

/-- Head `bh`, row `q`, lane `d` of the output: the running softmax over the head's four key/value blocks. -/
def attnRow (Q K V : Vec Ideal S32x2048x64 .bf16) (bh : Fin 32) (q : Fin 2048) (d : Fin 64) : EReal :=
  out (run4 (fun j c' => ∑ e : Fin 64, Q (ix3 bh q e) * K (ix3 bh (kvRow j c') e)) (fun j c' => V (ix3 bh (kvRow j c') d)))

/-- The whole output array. -/
def attn (Q K V : Vec Ideal S32x2048x64 .bf16) : Vec Ideal S32x2048x64 .f32 := fun i => attnRow Q K V (i 0) (i 1) (i 2)

/-! ## The windows' blocks inside their arrays -/

/-- The region's three input arrays as it finds them: queries, keys, values, laid out (head, row, lane). -/
abbrev Qa (c : Dev nD) : Vec Ideal S32x2048x64 .bf16 := V m c main_v5
abbrev Ka (c : Dev nD) : Vec Ideal S32x2048x64 .bf16 := V m c main_v9
abbrev Va (c : Dev nD) : Vec Ideal S32x2048x64 .bf16 := V m c main_v13

/-- The printed index maps at every grid point: head, query block and key/value block as quotients and remainders
    of the position. -/
theorem idx_facts : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = t.val % 4 ∧ win0_2.index t (2 : Fin 3) = 0
    ∧ win0_3.index t (0 : Fin 3) = t.val / 16 ∧ win0_3.index t (1 : Fin 3) = t.val / 4 % 4 ∧ win0_3.index t (2 : Fin 3) = 0 :=
  (by decide +kernel : ∀ t : Fin grid0.N, _)

/-- The query block at a point: rows of its head's query block. -/
theorem q_read (c : Dev nD) (p : Fin cfg0.N) (r : Fin 512) (e : Fin 64) (bh : Fin 32) (q : Fin 2048)
    (hbh : bh.val = p.val / 16) (hq : q.val = p.val / 4 % 4 * 512 + r.val) :
    (iblk m c 0 p : Vec Ideal S1x512x64 .bf16) (ix3 (0 : Fin 1) r e) = Qa m c (ix3 bh q e) := by
  obtain ⟨a00, a01, a02, a10, a11, a12, a20, a21, a22, -⟩ := idx_facts p
  unfold iblk
  rw [View.read_apply]
  show V m c main_v5 _ = V m c main_v5 _
  refine congrArg (V m c main_v5) (funext fun a => Fin.ext ?_)
  match a with
  | ⟨0, _⟩ => show win0_0.index p (0 : Fin 3) * 1 + 1 * (0 : Fin 1).val = bh.val; rw [a00, hbh]; simp
  | ⟨1, _⟩ => show win0_0.index p (1 : Fin 3) * 512 + 1 * r.val = q.val; rw [a01, hq]; omega
  | ⟨2, _⟩ => show win0_0.index p (2 : Fin 3) * 64 + 1 * e.val = e.val; rw [a02]; omega

/-- The key block at a point: rows of its head's key block. -/
theorem k_read (c : Dev nD) (p : Fin cfg0.N) (r : Fin 512) (e : Fin 64) (bh : Fin 32) (q : Fin 2048)
    (hbh : bh.val = p.val / 16) (hq : q.val = p.val % 4 * 512 + r.val) :
    (iblk m c 1 p : Vec Ideal S1x512x64 .bf16) (ix3 (0 : Fin 1) r e) = Ka m c (ix3 bh q e) := by
  obtain ⟨a00, a01, a02, a10, a11, a12, a20, a21, a22, -⟩ := idx_facts p
  unfold iblk
  rw [View.read_apply]
  show V m c main_v9 _ = V m c main_v9 _
  refine congrArg (V m c main_v9) (funext fun a => Fin.ext ?_)
  match a with
  | ⟨0, _⟩ => show win0_1.index p (0 : Fin 3) * 1 + 1 * (0 : Fin 1).val = bh.val; rw [a10, hbh]; simp
  | ⟨1, _⟩ => show win0_1.index p (1 : Fin 3) * 512 + 1 * r.val = q.val; rw [a11, hq]; omega
  | ⟨2, _⟩ => show win0_1.index p (2 : Fin 3) * 64 + 1 * e.val = e.val; rw [a12]; omega

/-- The value block at a point: rows of its head's value block. -/
theorem v_read (c : Dev nD) (p : Fin cfg0.N) (r : Fin 512) (e : Fin 64) (bh : Fin 32) (q : Fin 2048)
    (hbh : bh.val = p.val / 16) (hq : q.val = p.val % 4 * 512 + r.val) :
    (iblk m c 2 p : Vec Ideal S1x512x64 .bf16) (ix3 (0 : Fin 1) r e) = Va m c (ix3 bh q e) := by
  obtain ⟨a00, a01, a02, a10, a11, a12, a20, a21, a22, -⟩ := idx_facts p
  unfold iblk
  rw [View.read_apply]
  show V m c main_v13 _ = V m c main_v13 _
  refine congrArg (V m c main_v13) (funext fun a => Fin.ext ?_)
  match a with
  | ⟨0, _⟩ => show win0_2.index p (0 : Fin 3) * 1 + 1 * (0 : Fin 1).val = bh.val; rw [a20, hbh]; simp
  | ⟨1, _⟩ => show win0_2.index p (1 : Fin 3) * 512 + 1 * r.val = q.val; rw [a21, hq]; omega
  | ⟨2, _⟩ => show win0_2.index p (2 : Fin 3) * 64 + 1 * e.val = e.val; rw [a22]; omega

/-! ## What a group's last point writes, row by row -/

theorem group_row (c : Dev nD) (n : ℕ) (hn : n < cfg0.N) (h3 : n % 4 = 3) (r : Fin 512) (d : Fin 64)
    (bh : Fin 32) (q : Fin 2048) (hbh : bh.val = n / 16) (hq : q.val = n / 4 % 4 * 512 + r.val) :
    out (rowState (Carried.absorb (iblk m c 0 ⟨n, hn⟩) (iblk m c 1 ⟨n, hn⟩) (iblk m c 2 ⟨n, hn⟩)
          (Carried.absorb (iblk m c 0 ⟨n - 1, Carried.lt_pred hn⟩) (iblk m c 1 ⟨n - 1, Carried.lt_pred hn⟩) (iblk m c 2 ⟨n - 1, Carried.lt_pred hn⟩)
            (Carried.absorb (iblk m c 0 ⟨n - 1 - 1, Carried.lt_pred (Carried.lt_pred hn)⟩) (iblk m c 1 ⟨n - 1 - 1, Carried.lt_pred (Carried.lt_pred hn)⟩) (iblk m c 2 ⟨n - 1 - 1, Carried.lt_pred (Carried.lt_pred hn)⟩)
              (Carried.absorb (iblk m c 0 ⟨n - 1 - 1 - 1, Carried.lt_pred (Carried.lt_pred (Carried.lt_pred hn))⟩) (iblk m c 1 ⟨n - 1 - 1 - 1, Carried.lt_pred (Carried.lt_pred (Carried.lt_pred hn))⟩) (iblk m c 2 ⟨n - 1 - 1 - 1, Carried.lt_pred (Carried.lt_pred (Carried.lt_pred hn))⟩) Carried.fresh)))) r d)
      = attnRow (Qa m c) (Ka m c) (Va m c) bh q d := by
  have hN : cfg0.N = 512 := N_0
  rw [row_absorb, row_absorb, row_absorb, row_absorb, row_fresh]
  have hs0 : (fun c' => score (iblk m c 0 ⟨n - 1 - 1 - 1, Carried.lt_pred (Carried.lt_pred (Carried.lt_pred hn))⟩) (iblk m c 1 ⟨n - 1 - 1 - 1, Carried.lt_pred (Carried.lt_pred (Carried.lt_pred hn))⟩) r c') = (fun c' => ∑ e : Fin 64, Qa m c (ix3 bh q e) * Ka m c (ix3 bh (kvRow 0 c') e)) := by
    funext c'
    unfold score
    refine Finset.sum_congr rfl fun e _ => ?_
    rw [q_read m c ⟨n - 1 - 1 - 1, Carried.lt_pred (Carried.lt_pred (Carried.lt_pred hn))⟩ r e bh q (by show bh.val = (n - 1 - 1 - 1) / 16; omega) (by show q.val = (n - 1 - 1 - 1) / 4 % 4 * 512 + r.val; omega),
      k_read m c ⟨n - 1 - 1 - 1, Carried.lt_pred (Carried.lt_pred (Carried.lt_pred hn))⟩ c' e bh (kvRow 0 c') (by show bh.val = (n - 1 - 1 - 1) / 16; omega)
        (by show 0 * 512 + c'.val = (n - 1 - 1 - 1) % 4 * 512 + c'.val; omega)]
  have hv0 : (fun c' => (iblk m c 2 ⟨n - 1 - 1 - 1, Carried.lt_pred (Carried.lt_pred (Carried.lt_pred hn))⟩ : Vec Ideal S1x512x64 .bf16) (ix3 (0 : Fin 1) c' d)) = (fun c' => Va m c (ix3 bh (kvRow 0 c') d)) := by
    funext c'
    exact v_read m c ⟨n - 1 - 1 - 1, Carried.lt_pred (Carried.lt_pred (Carried.lt_pred hn))⟩ c' d bh (kvRow 0 c') (by show bh.val = (n - 1 - 1 - 1) / 16; omega)
      (by show 0 * 512 + c'.val = (n - 1 - 1 - 1) % 4 * 512 + c'.val; omega)
  have hs1 : (fun c' => score (iblk m c 0 ⟨n - 1 - 1, Carried.lt_pred (Carried.lt_pred hn)⟩) (iblk m c 1 ⟨n - 1 - 1, Carried.lt_pred (Carried.lt_pred hn)⟩) r c') = (fun c' => ∑ e : Fin 64, Qa m c (ix3 bh q e) * Ka m c (ix3 bh (kvRow 1 c') e)) := by
    funext c'
    unfold score
    refine Finset.sum_congr rfl fun e _ => ?_
    rw [q_read m c ⟨n - 1 - 1, Carried.lt_pred (Carried.lt_pred hn)⟩ r e bh q (by show bh.val = (n - 1 - 1) / 16; omega) (by show q.val = (n - 1 - 1) / 4 % 4 * 512 + r.val; omega),
      k_read m c ⟨n - 1 - 1, Carried.lt_pred (Carried.lt_pred hn)⟩ c' e bh (kvRow 1 c') (by show bh.val = (n - 1 - 1) / 16; omega)
        (by show 1 * 512 + c'.val = (n - 1 - 1) % 4 * 512 + c'.val; omega)]
  have hv1 : (fun c' => (iblk m c 2 ⟨n - 1 - 1, Carried.lt_pred (Carried.lt_pred hn)⟩ : Vec Ideal S1x512x64 .bf16) (ix3 (0 : Fin 1) c' d)) = (fun c' => Va m c (ix3 bh (kvRow 1 c') d)) := by
    funext c'
    exact v_read m c ⟨n - 1 - 1, Carried.lt_pred (Carried.lt_pred hn)⟩ c' d bh (kvRow 1 c') (by show bh.val = (n - 1 - 1) / 16; omega)
      (by show 1 * 512 + c'.val = (n - 1 - 1) % 4 * 512 + c'.val; omega)
  have hs2 : (fun c' => score (iblk m c 0 ⟨n - 1, Carried.lt_pred hn⟩) (iblk m c 1 ⟨n - 1, Carried.lt_pred hn⟩) r c') = (fun c' => ∑ e : Fin 64, Qa m c (ix3 bh q e) * Ka m c (ix3 bh (kvRow 2 c') e)) := by
    funext c'
    unfold score
    refine Finset.sum_congr rfl fun e _ => ?_
    rw [q_read m c ⟨n - 1, Carried.lt_pred hn⟩ r e bh q (by show bh.val = (n - 1) / 16; omega) (by show q.val = (n - 1) / 4 % 4 * 512 + r.val; omega),
      k_read m c ⟨n - 1, Carried.lt_pred hn⟩ c' e bh (kvRow 2 c') (by show bh.val = (n - 1) / 16; omega)
        (by show 2 * 512 + c'.val = (n - 1) % 4 * 512 + c'.val; omega)]
  have hv2 : (fun c' => (iblk m c 2 ⟨n - 1, Carried.lt_pred hn⟩ : Vec Ideal S1x512x64 .bf16) (ix3 (0 : Fin 1) c' d)) = (fun c' => Va m c (ix3 bh (kvRow 2 c') d)) := by
    funext c'
    exact v_read m c ⟨n - 1, Carried.lt_pred hn⟩ c' d bh (kvRow 2 c') (by show bh.val = (n - 1) / 16; omega)
      (by show 2 * 512 + c'.val = (n - 1) % 4 * 512 + c'.val; omega)
  have hs3 : (fun c' => score (iblk m c 0 ⟨n, hn⟩) (iblk m c 1 ⟨n, hn⟩) r c') = (fun c' => ∑ e : Fin 64, Qa m c (ix3 bh q e) * Ka m c (ix3 bh (kvRow 3 c') e)) := by
    funext c'
    unfold score
    refine Finset.sum_congr rfl fun e _ => ?_
    rw [q_read m c ⟨n, hn⟩ r e bh q (by show bh.val = (n) / 16; omega) (by show q.val = (n) / 4 % 4 * 512 + r.val; omega),
      k_read m c ⟨n, hn⟩ c' e bh (kvRow 3 c') (by show bh.val = (n) / 16; omega)
        (by show 3 * 512 + c'.val = (n) % 4 * 512 + c'.val; omega)]
  have hv3 : (fun c' => (iblk m c 2 ⟨n, hn⟩ : Vec Ideal S1x512x64 .bf16) (ix3 (0 : Fin 1) c' d)) = (fun c' => Va m c (ix3 bh (kvRow 3 c') d)) := by
    funext c'
    exact v_read m c ⟨n, hn⟩ c' d bh (kvRow 3 c') (by show bh.val = (n) / 16; omega)
      (by show 3 * 512 + c'.val = (n) % 4 * 512 + c'.val; omega)
  rw [hs0, hv0, hs1, hv1, hs2, hv2, hs3, hv3]
  rfl

/-! ## The write-backs and the array they leave -/

/-- What a flushing point writes back is its block of `attn` of the region's input arrays. -/
theorem flushed_eq (c : Dev nD) (t : Fin cfg0.N) (hf : (cfg0.win 3).flush t = true) :
    (dats m 0 c).flushed 3 t
      = ((cfg0.win 3).blk t).view.read (Elt Ideal) (attn (Qa m c) (Ka m c) (Va m c)) := by
  have h3 : t.val % 4 = 3 := (flush0_3 t).mp hf
  obtain ⟨-, -, -, -, -, -, -, -, -, a0, a1, a2⟩ := idx_facts t
  show (cfg0.win 3).cut (grid0.coords t) ((dats m 0 c).after 3 t) = _
  rw [after0_3, Carried.out_group m c t.val t.isLt h3]
  refine funext fun (y : S1x512x64.Idx) => ?_
  obtain ⟨u, r, d, rfl⟩ : ∃ (u : Fin 1) (r : Fin 512) (d : Fin 64), y = ix3 u r d := ⟨y 0, y 1, y 2, eq_ix3 y⟩
  have hN : cfg0.N = 512 := N_0
  have ht : t.val < 512 := lt_of_lt_of_eq t.isLt hN
  have hu : u.val = 0 := by omega
  have hi : ((cfg0.win 3).blk t).view.emb (ix3 u r d)
      = ix3 (⟨t.val / 16, by omega⟩ : Fin 32) (⟨t.val / 4 % 4 * 512 + r.val, by omega⟩ : Fin 2048) d := by
    funext a; apply Fin.ext
    match a with
    | ⟨0, _⟩ => show win0_3.index t (0 : Fin 3) * 1 + 1 * u.val = t.val / 16; rw [a0, hu]; omega
    | ⟨1, _⟩ => show win0_3.index t (1 : Fin 3) * 512 + 1 * r.val = t.val / 4 % 4 * 512 + r.val; rw [a1]; omega
    | ⟨2, _⟩ => show win0_3.index t (2 : Fin 3) * 64 + 1 * d.val = d.val; rw [a2]; omega
  rw [View.read_apply, hi]
  show Carried.emit (F := Ideal) _ (ix3 u r d) = attnRow (Qa m c) (Ka m c) (Va m c) _ _ d
  rw [emit_at]
  exact group_row m c t.val t.isLt h3 r d _ _ rfl rfl

/-- The output array after the region: `attn` of the region's input arrays, everywhere. -/
theorem final_out (c : Dev nD) :
    (dats m 0 c).arrAt 3 cfg0.N = attn (Qa m c) (Ka m c) (Va m c) :=
  (dats m 0 c).arrAt_eq_of_cover 3 (attn (Qa m c) (Ka m c) (Va m c)) (flushed_eq m c)
    fun (i : S32x2048x64.Idx) => by
      have h0 : (i 0).val < 32 := (i 0).isLt
      have h1 : (i 1).val < 2048 := (i 1).isLt
      have h2 : (i 2).val < 64 := (i 2).isLt
      have hN : cfg0.N = 512 := N_0
      have hlt : 16 * (i 0).val + 4 * ((i 1).val / 512) + 3 < cfg0.N := by rw [hN]; omega
      obtain ⟨-, -, -, -, -, -, -, -, -, a0, a1, a2⟩ := idx_facts ⟨16 * (i 0).val + 4 * ((i 1).val / 512) + 3, hlt⟩
      refine ⟨⟨16 * (i 0).val + 4 * ((i 1).val / 512) + 3, hlt⟩, (flush0_3 _).mpr (by show (16 * (i 0).val + 4 * ((i 1).val / 512) + 3) % 4 = 3; omega), ?_⟩
      show i ∈ ((View.whole main_v14).slice (win0_3.rect ⟨16 * (i 0).val + 4 * ((i 1).val / 512) + 3, hlt⟩)).set
      rw [View.set_slice_whole, Rect.mem_set_unit]
      intro a
      match a with
      | ⟨0, _⟩ =>
        show win0_3.index ⟨16 * (i 0).val + 4 * ((i 1).val / 512) + 3, hlt⟩ (0 : Fin 3) * 1 ≤ (i 0).val
          ∧ (i 0).val < win0_3.index ⟨16 * (i 0).val + 4 * ((i 1).val / 512) + 3, hlt⟩ (0 : Fin 3) * 1 + 1
        rw [a0]; show (16 * (i 0).val + 4 * ((i 1).val / 512) + 3) / 16 * 1 ≤ _ ∧ _ < (16 * (i 0).val + 4 * ((i 1).val / 512) + 3) / 16 * 1 + 1; omega
      | ⟨1, _⟩ =>
        show win0_3.index ⟨16 * (i 0).val + 4 * ((i 1).val / 512) + 3, hlt⟩ (1 : Fin 3) * 512 ≤ (i 1).val
          ∧ (i 1).val < win0_3.index ⟨16 * (i 0).val + 4 * ((i 1).val / 512) + 3, hlt⟩ (1 : Fin 3) * 512 + 512
        rw [a1]; show (16 * (i 0).val + 4 * ((i 1).val / 512) + 3) / 4 % 4 * 512 ≤ _ ∧ _ < (16 * (i 0).val + 4 * ((i 1).val / 512) + 3) / 4 % 4 * 512 + 512; omega
      | ⟨2, _⟩ =>
        show win0_3.index ⟨16 * (i 0).val + 4 * ((i 1).val / 512) + 3, hlt⟩ (2 : Fin 3) * 64 ≤ (i 2).val
          ∧ (i 2).val < win0_3.index ⟨16 * (i 0).val + 4 * ((i 1).val / 512) + 3, hlt⟩ (2 : Fin 3) * 64 + 64
        rw [a2]; omega

end Cert.KernelIdeal.Output

end
-- ==== Proof.HeadLayout.lean ====
/-
  Splitting the model axis into heads. An array of shape 2 × 2048 × 1024 (batch, row, model) is reshaped to
  2 × 2048 × 16 × 64 (batch, row, head, lane) and its two middle axes are exchanged, giving 2 × 16 × 2048 × 64
  (batch, head, row, lane): entry (b, h, q, d) of the result is entry (b, q, 64 h + d) of the array.
-/
import Idealize.ShloMosaic.Lib.ValueLayout
import Idealize.ShloMosaic.Lib.Pipeline.Value

noncomputable section

namespace HeadLayout

open Idealize.ShloMosaic Idealize.ShloMosaic.ValueIdx

variable {α : Type}

/-- Batch b, head h, row q, lane d, as an index of the 2 × 2048 × 1024 array: (b, q, 64 h + d). -/
def headIdx (b : Fin 2) (h : Fin 16) (q : Fin 2048) (d : Fin 64) : (⟨3, ![2, 2048, 1024]⟩ : Shape).Idx :=
  ix3 b q (⟨h.val * 64 + d.val, by have := h.isLt; have := d.isLt; omega⟩ : Fin 1024)

/-- The reshape to (batch, row, head, lane) followed by the exchange of rows and heads, read at (b, h, q, d). -/
theorem heads_apply (x : (⟨3, ![2, 2048, 1024]⟩ : Shape).Idx → α)
    (h1 : (⟨3, ![2, 2048, 1024]⟩ : Shape).ShapeCasts ⟨4, ![2, 2048, 16, 64]⟩)
    (h2 : (⟨4, ![2, 2048, 16, 64]⟩ : Shape).Transposes [0, 2, 1, 3] ⟨4, ![2, 16, 2048, 64]⟩)
    (b : Fin 2) (h : Fin 16) (q : Fin 2048) (d : Fin 64) :
    transpose ⟨4, ![2, 16, 2048, 64]⟩ [0, 2, 1, 3] (shapeCast ⟨4, ![2, 2048, 16, 64]⟩ x h1) h2 (ix4 b h q d)
      = x (headIdx b h q d) := by
  rw [transpose_apply [0, 2, 1, 3] (shapeCast ⟨4, ![2, 2048, 16, 64]⟩ x h1) h2 (ix4 b h q d) (ix4 b q h d)
    (fun a => match a with
      | ⟨0, _⟩ => rfl
      | ⟨1, _⟩ => rfl
      | ⟨2, _⟩ => rfl
      | ⟨3, _⟩ => rfl)]
  exact shapeCast_apply x h1 (ix4 b q h d) (headIdx b h q d) (by
    rw [Shape.rowMajor_val_three, Shape.rowMajor_val_four]
    show (b.val * 2048 + q.val) * 1024 + (h.val * 64 + d.val) = ((b.val * 2048 + q.val) * 16 + h.val) * 64 + d.val
    ring)

/-- The exchange of heads and rows back, followed by the reshape to (batch, row, model): the layout both programs
    end with, as one function of a (batch, head, row, lane) array. -/
def merge (y : (⟨4, ![2, 16, 2048, 64]⟩ : Shape).Idx → α)
    (h1 : (⟨4, ![2, 16, 2048, 64]⟩ : Shape).Transposes [0, 2, 1, 3] ⟨4, ![2, 2048, 16, 64]⟩)
    (h2 : (⟨4, ![2, 2048, 16, 64]⟩ : Shape).ShapeCasts ⟨3, ![2, 2048, 1024]⟩) :
    (⟨3, ![2, 2048, 1024]⟩ : Shape).Idx → α :=
  shapeCast ⟨3, ![2, 2048, 1024]⟩ (transpose ⟨4, ![2, 2048, 16, 64]⟩ [0, 2, 1, 3] y h1) h2

end HeadLayout

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.KernelHost.lean ====
/-
  The kernel's program around its region.

  Before the region the host scales the queries by the word 0.125, and lays queries, keys and values out by heads:
  entry (16 b + h, q, d) of each of the region's three input arrays is entry (b, q, 64 h + d) of the corresponding
  argument (times the scale, for the queries). After the region the host splits the leading axis of the region's
  output back into (batch, head) and merges heads into the model axis. So the program's result is that final layout
  of `attn` of the three laid-out arrays, and its arguments end as they began.
-/
import proofs.«124789_j68736656605917_2_alg».proof.Proof.OutputArray
import proofs.«124789_j68736656605917_2_alg».proof.Proof.HeadLayout
import proofs.«124789_j68736656605917_2_alg».proof.Proof.LibMergedAxes
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Host

open Cert.KernelIdeal Cert.KernelIdeal.Gen Cert.KernelIdeal.Output Idealize.ShloMosaic.ValueIdx HeadLayout

variable (m : (ℓ : Loc nD τ sig) → Buf (Elt Ideal) ℓ) (ρ : Dev nD → PrngReg)

/-- The query scale, the word 0x3E000000. -/
abbrev scale : EReal := Ideal.ofBits .f32 0x3E000000#32

/-- The three arguments on a core. -/
abbrev argQ (c : Dev nD) : FVec Ideal S2x2048x1024 .f32 := m ((c : Thread nD τ).loc main_arg0)
abbrev argK (c : Dev nD) : FVec Ideal S2x2048x1024 .f32 := m ((c : Thread nD τ).loc main_arg1)
abbrev argV (c : Dev nD) : FVec Ideal S2x2048x1024 .f32 := m ((c : Thread nD τ).loc main_arg2)

/-- The laid-out queries: head 16 b + h, row q, lane d is the argument's entry (b, q, 64 h + d) times the scale. -/
theorem Qa_at (c : Dev nD) (b : Fin 2) (h : Fin 16) (q : Fin 2048) (d : Fin 64) (bh : Fin 32) (hbh : bh.val = b.val * 16 + h.val) :
    Qa m c (ix3 bh q d) = argQ m c (headIdx b h q d) * scale := by
  have e : Qa m c = shapeCast S32x2048x64 (transpose S2x16x2048x64 [0, 2, 1, 3]
      (shapeCast S2x2048x16x64 (truncf .bf16 (mulf (argQ m c)
        (broadcastInDim S2x2048x1024 ![] bcast_S_S2x2048x1024 (constant (F := Ideal) S_ .f32 0x3E000000#32))) bitsLt_bf16_f32)
        shapeCasts_S2x2048x1024_S2x2048x16x64) transposes_S2x2048x16x64_S2x16x2048x64_0_2_1_3)
      shapeCasts_S2x16x2048x64_S32x2048x64 := by
    show StableHlo.after hostOps0 (fun b => m (c, b)) (Proc.devRef .tc main_v5) = _
    after_results
    rfl
  rw [e, Cert.LibMergedAxes.shapeCast_abcd_ncd_apply _ _ b h q d bh hbh, heads_apply, truncf_apply, mulf_apply,
    broadcastInDim_apply _ bcast_S_S2x2048x1024 _ _ ix0 (fun a => a.elim0)]
  rfl

/-- The laid-out keys. -/
theorem Ka_at (c : Dev nD) (b : Fin 2) (h : Fin 16) (q : Fin 2048) (d : Fin 64) (bh : Fin 32) (hbh : bh.val = b.val * 16 + h.val) :
    Ka m c (ix3 bh q d) = argK m c (headIdx b h q d) := by
  have e : Ka m c = shapeCast S32x2048x64 (transpose S2x16x2048x64 [0, 2, 1, 3]
      (shapeCast S2x2048x16x64 (truncf .bf16 (argK m c) bitsLt_bf16_f32)
        shapeCasts_S2x2048x1024_S2x2048x16x64) transposes_S2x2048x16x64_S2x16x2048x64_0_2_1_3)
      shapeCasts_S2x16x2048x64_S32x2048x64 := by
    show StableHlo.after hostOps0 (fun b => m (c, b)) (Proc.devRef .tc main_v9) = _
    after_results
    rfl
  rw [e, Cert.LibMergedAxes.shapeCast_abcd_ncd_apply _ _ b h q d bh hbh, heads_apply]
  rfl

/-- The laid-out values. -/
theorem Va_at (c : Dev nD) (b : Fin 2) (h : Fin 16) (q : Fin 2048) (d : Fin 64) (bh : Fin 32) (hbh : bh.val = b.val * 16 + h.val) :
    Va m c (ix3 bh q d) = argV m c (headIdx b h q d) := by
  have e : Va m c = shapeCast S32x2048x64 (transpose S2x16x2048x64 [0, 2, 1, 3]
      (shapeCast S2x2048x16x64 (truncf .bf16 (argV m c) bitsLt_bf16_f32)
        shapeCasts_S2x2048x1024_S2x2048x16x64) transposes_S2x2048x16x64_S2x16x2048x64_0_2_1_3)
      shapeCasts_S2x16x2048x64_S32x2048x64 := by
    show StableHlo.after hostOps0 (fun b => m (c, b)) (Proc.devRef .tc main_v13) = _
    after_results
    rfl
  rw [e, Cert.LibMergedAxes.shapeCast_abcd_ncd_apply _ _ b h q d bh hbh, heads_apply]
  rfl

/-- The region's output with its leading axis split into (batch, head). -/
def heads4 (y : Vec Ideal S32x2048x64 .f32) : Vec Ideal S2x16x2048x64 .f32 :=
  shapeCast S2x16x2048x64 y shapeCasts_S32x2048x64_S2x16x2048x64

/-- The program's result on a core. -/
def result (c : Dev nD) : FVec Ideal S2x2048x1024 .f32 :=
  merge (heads4 (attn (Qa m c) (Ka m c) (Va m c))) transposes_S2x16x2048x64_S2x2048x16x64_0_2_1_3 shapeCasts_S2x2048x16x64_S2x2048x1024

/-- What the lines after the region leave in the result buffer. -/
theorem result_eq (c : Dev nD) :
    Pipeline.afterTail₀ cfgs (dats m) 0 (V0 m) [hostOps1] c main_v17 = result m c := by
  have e : Pipeline.withArrays (cfgs 0).spec c (V0 m c) (fun w => (dats m 0 c).arrAt w (cfgs 0).N) (Proc.devRef .tc main_v14)
      = attn (Qa m c) (Ka m c) (Va m c) :=
    (Pipeline.withArrays_arr spec0 launch0.win.arr_inj c _ _ 3).trans (final_out m c)
  unfold Pipeline.afterTail₀
  show StableHlo.after hostOps1 _ (Proc.devRef .tc main_v17) = _
  after_results
  exact congrArg (fun y => merge (heads4 y) transposes_S2x16x2048x64_S2x2048x16x64_0_2_1_3 shapeCasts_S2x2048x16x64_S2x2048x1024) e

/-- The kernel's run, read: the result buffer at `result`, the arguments unchanged. -/
theorem run : θ_run defs (onTc (τ := τ) (main (F := Ideal))) ⟨m, fun _ => 0, ρ⟩ fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Host

end
-- ==== Proof.RefImports.lean ====
/-
  The reference's run read back, one host operation at a time: this module only brings the generated
  run and its read-at-an-index lemmas into scope for the modules that follow.
-/
import proofs.«124789_j68736656605917_2_alg».proof.Proof.Gen.ReferenceIdeal.Run
import proofs.«124789_j68736656605917_2_alg».proof.Proof.Gen.ReferenceIdeal.Read
-- ==== Proof.ReferenceRows.lean ====
/-
  The reference, row by row.

  The reference lays the three arguments out by heads, (batch, head, row, lane), entry (b, h, q, d) being the
  argument's entry (b, q, 64 h + d). For batch b, head h and query row q its scores against the 2048 key rows are
  s(k) = (Σ_e Q(b, h, q, e) · K(b, h, k, e)) · 0.125; it subtracts their maximum M (the greater of −∞ and the fold of
  max from −∞), exponentiates, divides by 0 + the sum of the exponentials, and takes the weighted sum of the value
  rows: entry (b, h, q, d) of its product is  Σ_k (exp (s(k) − M) / (0 + Σ_k' exp (s(k') − M))) · V(b, h, k, d).
-/
import proofs.«124789_j68736656605917_2_alg».proof.Proof.RefImports
import proofs.«124789_j68736656605917_2_alg».proof.Proof.HeadLayout
import proofs.«124789_j68736656605917_2_alg».proof.Proof.LibSoftmaxShift

noncomputable section

namespace Cert.ReferenceIdeal.Rows

open Cert.ReferenceIdeal Cert.ReferenceIdeal.Gen Cert.ReferenceIdeal.Read Idealize.ShloMosaic Idealize.ShloMosaic.ValueIdx HeadLayout
open scoped BigOperators

variable (x0 x1 x2 : (⟨S2x2048x1024, .f32⟩ : BufTy).Contents (Elt Ideal))

/-- The score scale, the word 0x3E000000. -/
abbrev scale : EReal := Ideal.ofBits .f32 0x3E000000#32

/-- Each laid-out argument at (b, h, q, d). -/
theorem q_at (b : Fin 2) (h : Fin 16) (q : Fin 2048) (d : Fin 64) :
    val_main_v1 (F := Ideal) x0 (ix4 b h q d) = x0 (headIdx b h q d) := by
  unfold val_main_v1 val_main_v0
  exact heads_apply x0 _ _ b h q d

theorem k_at (b : Fin 2) (h : Fin 16) (q : Fin 2048) (d : Fin 64) :
    val_main_v3 (F := Ideal) x1 (ix4 b h q d) = x1 (headIdx b h q d) := by
  unfold val_main_v3 val_main_v2
  exact heads_apply x1 _ _ b h q d

theorem v_at (b : Fin 2) (h : Fin 16) (q : Fin 2048) (d : Fin 64) :
    val_main_v5 (F := Ideal) x2 (ix4 b h q d) = x2 (headIdx b h q d) := by
  unfold val_main_v5 val_main_v4
  exact heads_apply x2 _ _ b h q d

/-- The score of query row q against key row k, for batch b and head h. -/
def score (b : Fin 2) (h : Fin 16) (q k : Fin 2048) : EReal :=
  (∑ e : Fin 64, x0 (headIdx b h q e) * x1 (headIdx b h k e)) * scale

theorem score_at (b : Fin 2) (h : Fin 16) (q k : Fin 2048) :
    val_main_v8 (F := Ideal) x0 x1 (ix4 b h q k) = score x0 x1 b h q k := by
  have hl : ∀ e : Fin 64, lidx_main_v6 (ix4 b h q k) e = ix4 b h q e := fun e => funext fun a => Fin.ext (by match a with | ⟨0, _⟩ => rfl | ⟨1, _⟩ => rfl | ⟨2, _⟩ => rfl | ⟨3, _⟩ => rfl)
  have hr : ∀ e : Fin 64, ridx_main_v6 (ix4 b h q k) e = ix4 b h k e := fun e => funext fun a => Fin.ext (by match a with | ⟨0, _⟩ => rfl | ⟨1, _⟩ => rfl | ⟨2, _⟩ => rfl | ⟨3, _⟩ => rfl)
  rw [val_main_v8_apply, val_main_v6_apply, val_main_v7_apply, val_main_cst_apply]
  simp only [hl, hr, q_at, k_at]
  rfl

/-- The shift the reference subtracts from row (b, h, q)'s scores. -/
abbrev shift (b : Fin 2) (h : Fin 16) (q : Fin 2048) : EReal := val_main_v11 (F := Ideal) x0 x1 (ix3 b h q)

/-- When every score of the row is a real, so is the shift. -/
theorem shift_real (b : Fin 2) (h : Fin 16) (q : Fin 2048) (hS : ∀ k, ∃ r : ℝ, score x0 x1 b h q k = (r : EReal)) :
    ∃ M : ℝ, shift x0 x1 b h q = (M : EReal) := by
  have hneg : Ideal.ofBits .f32 0xFF800000#32 = (⊥ : EReal) := by simp [Ideal.ofBits, Ideal.ieee]
  have hred : S2x16x2048x2048.Reduces [3] S2x16x2048 := by decide
  have hlift : ∀ k : Fin 2048, hred.lift (ix3 b h q) k = ix4 b h q k := fun k => funext fun a => Fin.ext (by match a with | ⟨0, _⟩ => rfl | ⟨1, _⟩ => rfl | ⟨2, _⟩ => rfl | ⟨3, _⟩ => rfl)
  obtain ⟨M, hM⟩ := Cert.LibSoftmaxShift.fold_max_real (n := 2048) (by norm_num) (fun k => score x0 x1 b h q k) hS
  refine ⟨M, ?_⟩
  unfold shift
  rw [val_main_v11_apply, val_main_v10_apply, val_main_cst_1_apply]
  unfold val_main_v9
  rw [Host.reduce_eq_fold_single (FloatOps.maximumf (F := Ideal) (φ := .f32)) _ _ reducesTo_S2x16x2048x2048_S2x16x2048_d3 hred h_S_]
  have key : (fun k : Fin 2048 => val_main_v8 (F := Ideal) x0 x1 (hred.lift (ix3 b h q) k))
      = fun k => score x0 x1 b h q k := funext fun k => by rw [hlift, score_at]
  have goal : max (Ideal.ofBits .f32 0xFF800000#32)
      ((Finset.univ : Finset (Fin 2048)).fold max (Ideal.ofBits .f32 0xFF800000#32)
        (fun k : Fin 2048 => val_main_v8 (F := Ideal) x0 x1 (hred.lift (ix3 b h q) k))) = (M : EReal) := by
    rw [hneg, key, hM]; exact max_eq_right bot_le
  exact goal

/-- The exponentials of row (b, h, q). -/
theorem exp_at (b : Fin 2) (h : Fin 16) (q k : Fin 2048) :
    val_main_v15 (F := Ideal) x0 x1 (ix4 b h q k) = Ideal.exp (score x0 x1 b h q k - shift x0 x1 b h q) := by
  have h13 : idx_main_v12 (idx_main_v13 (ix4 b h q k)) = ix3 b h q := funext fun a => Fin.ext (by match a with | ⟨0, _⟩ => rfl | ⟨1, _⟩ => rfl | ⟨2, _⟩ => rfl)
  rw [val_main_v15_apply, val_main_v14_apply, val_main_v13_apply, val_main_v12_apply, h13, score_at]
  rfl

/-- The denominator of row (b, h, q): 0 + the sum of its exponentials. -/
theorem den_at (b : Fin 2) (h : Fin 16) (q k : Fin 2048) :
    val_main_v18 (F := Ideal) x0 x1 (ix4 b h q k)
      = 0 + ∑ k' : Fin 2048, Ideal.exp (score x0 x1 b h q k' - shift x0 x1 b h q) := by
  have h18 : idx_main_v17 (idx_main_v18 (ix4 b h q k)) = ix3 b h q := funext fun a => Fin.ext (by match a with | ⟨0, _⟩ => rfl | ⟨1, _⟩ => rfl | ⟨2, _⟩ => rfl)
  have h16 : ∀ k' : Fin 2048, idx_main_v16 (ix3 b h q) k' = ix4 b h q k' := fun k' => funext fun a => Fin.ext (by match a with | ⟨0, _⟩ => rfl | ⟨1, _⟩ => rfl | ⟨2, _⟩ => rfl | ⟨3, _⟩ => rfl)
  rw [val_main_v18_apply, val_main_v17_apply, h18, val_main_v16_apply, val_main_cst_2_apply]
  simp only [h16, exp_at]
  rw [Ideal.ofBits_def, Ideal.ofBits_zero_f32]

/-- Entry (b, h, q, d) of the reference's product of the softmax weights with the values. -/
theorem out_at (b : Fin 2) (h : Fin 16) (q : Fin 2048) (d : Fin 64) :
    val_main_v20 (F := Ideal) x0 x1 x2 (ix4 b h q d)
      = ∑ k : Fin 2048, Ideal.div (Ideal.exp (score x0 x1 b h q k - shift x0 x1 b h q))
          (0 + ∑ k' : Fin 2048, Ideal.exp (score x0 x1 b h q k' - shift x0 x1 b h q)) * x2 (headIdx b h k d) := by
  have hl : ∀ k : Fin 2048, lidx_main_v20 (ix4 b h q d) k = ix4 b h q k := fun k => funext fun a => Fin.ext (by match a with | ⟨0, _⟩ => rfl | ⟨1, _⟩ => rfl | ⟨2, _⟩ => rfl | ⟨3, _⟩ => rfl)
  have hr : ∀ k : Fin 2048, ridx_main_v20 (ix4 b h q d) k = ix4 b h k d := fun k => funext fun a => Fin.ext (by match a with | ⟨0, _⟩ => rfl | ⟨1, _⟩ => rfl | ⟨2, _⟩ => rfl | ⟨3, _⟩ => rfl)
  rw [val_main_v20_apply]
  refine Finset.sum_congr rfl fun k _ => ?_
  rw [hl, hr, v_at, val_main_v19_apply, exp_at, den_at]
  rfl

end Cert.ReferenceIdeal.Rows

end
-- ==== Proof.AttentionAgree.lean ====
/-
  One-pass attention and blockwise attention agree on real data.

  For one query row with real entries xq, 2048 key rows xk and 2048 values xv, a real scale κ and any real shift M:
  the one-pass form takes the scores s(k) = (Σ_e xq(e) · xk(k, e)) · κ, and returns
      Σ_k (exp (s(k) − M) / (0 + Σ_k' exp (s(k') − M))) · xv(k);
  the blockwise form scales the query first, s'(k) = Σ_e (xq(e) · κ) · xk(k, e), and runs the running softmax over the
  four blocks of 512 keys. On reals s' = s (the scale moves across the finite sum), both forms are the
  exponential-weighted mean (Σ_k exp s(k) · xv(k)) / (Σ_k exp s(k)), and a sum over 2048 keys is the sum over 4 blocks
  of 512.
-/
import proofs.«124789_j68736656605917_2_alg».proof.Proof.LibOnlineSoftmax

noncomputable section

namespace AttentionAgree

open Idealize.ShloMosaic OnlineSoftmax
open scoped BigOperators

/-- The agreement, for real numbers. -/
theorem agree_real (g : Fin 4 → Fin 512 → Fin 2048) (hg : ∀ j c, (g j c).val = j.val * 512 + c.val)
    (rq : Fin 64 → ℝ) (rk : Fin 2048 → Fin 64 → ℝ) (rv : Fin 2048 → ℝ) (κ M : ℝ) :
    ∑ k : Fin 2048, Ideal.div (Ideal.exp ((((∑ e : Fin 64, rq e * rk k e) * κ : ℝ) : EReal) - (M : EReal)))
        (0 + ∑ k' : Fin 2048, Ideal.exp ((((∑ e : Fin 64, rq e * rk k' e) * κ : ℝ) : EReal) - (M : EReal)))
        * ((rv k : ℝ) : EReal)
      = out (run4 (fun j c => (((∑ e : Fin 64, (rq e * κ) * rk (g j c) e : ℝ)) : EReal)) (fun j c => ((rv (g j c) : ℝ) : EReal))) := by
  haveI : Nonempty (Fin 2048) := ⟨0⟩
  rw [softmax_sum (fun k => (∑ e : Fin 64, rq e * rk k e) * κ) rv M,
    out_run4 (by norm_num) (fun j c => ∑ e : Fin 64, (rq e * κ) * rk (g j c) e) (fun j c => rv (g j c))]
  have hs : ∀ j c, (∑ e : Fin 64, (rq e * κ) * rk (g j c) e) = (∑ e : Fin 64, rq e * rk (g j c) e) * κ := fun j c => by
    rw [Finset.sum_mul]; exact Finset.sum_congr rfl fun e _ => by ring
  simp only [hs]
  rw [BlockSums.sum_blocks (by norm_num : 2048 = 4 * 512) g hg (fun k => Real.exp ((∑ e : Fin 64, rq e * rk k e) * κ) * rv k),
    BlockSums.sum_blocks (by norm_num : 2048 = 4 * 512) g hg (fun k => Real.exp ((∑ e : Fin 64, rq e * rk k e) * κ))]

/-- The agreement, for extended reals that are real numbers. -/
theorem agree (g : Fin 4 → Fin 512 → Fin 2048) (hg : ∀ j c, (g j c).val = j.val * 512 + c.val)
    (xq : Fin 64 → EReal) (xk : Fin 2048 → Fin 64 → EReal) (xv : Fin 2048 → EReal) (κ M : EReal)
    (hq : ∀ e, ∃ r : ℝ, xq e = (r : EReal)) (hk : ∀ k e, ∃ r : ℝ, xk k e = (r : EReal)) (hv : ∀ k, ∃ r : ℝ, xv k = (r : EReal))
    (hκ : ∃ r : ℝ, κ = (r : EReal)) (hM : ∃ r : ℝ, M = (r : EReal)) :
    ∑ k : Fin 2048, Ideal.div (Ideal.exp ((∑ e : Fin 64, xq e * xk k e) * κ - M))
        (0 + ∑ k' : Fin 2048, Ideal.exp ((∑ e : Fin 64, xq e * xk k' e) * κ - M)) * xv k
      = out (run4 (fun j c => ∑ e : Fin 64, (xq e * κ) * xk (g j c) e) (fun j c => xv (g j c))) := by
  choose rq hq using hq
  choose rk hk using hk
  choose rv hv using hv
  obtain ⟨κr, rfl⟩ := hκ
  obtain ⟨Mr, rfl⟩ := hM
  obtain rfl : xq = fun e => ((rq e : ℝ) : EReal) := funext hq
  obtain rfl : xk = fun k e => ((rk k e : ℝ) : EReal) := funext fun k => funext (hk k)
  obtain rfl : xv = fun k => ((rv k : ℝ) : EReal) := funext hv
  simp only [← EReal.coe_mul, Cert.LibSoftmaxShift.coe_sum]
  exact agree_real g hg rq rk rv κr Mr

end AttentionAgree

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Mathlib
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.Agreement.lean ====
/-
  The two programs' results agree when every input entry is a real number.

  Both programs end with the same layout (heads merged back into the model axis) of a (batch, head, row, lane)
  array: the reference's product of softmax weights with values, and the kernel's region output with its leading
  axis split into (batch, head). Entry (b, h, q, d) of the first is the one-pass attention of query row (b, h, q)
  over the 2048 key rows of head (b, h); of the second, the running softmax over that head's four key/value blocks
  with the query scaled first. On real inputs these agree (AttentionAgree), the scale 0.125 and the reference's
  shift being real numbers.
-/
import proofs.«124789_j68736656605917_2_alg».proof.Proof.KernelHost
import proofs.«124789_j68736656605917_2_alg».proof.Proof.ReferenceRows
import proofs.«124789_j68736656605917_2_alg».proof.Proof.AttentionAgree
import proofs.«124789_j68736656605917_2_alg».proof.Proof.LibMoments

set_option maxRecDepth 16384

noncomputable section

namespace Cert.Agreement

open Idealize.ShloMosaic Idealize.ShloMosaic.ValueIdx HeadLayout OnlineSoftmax
open Cert.KernelIdeal.Output
open scoped BigOperators

/-- The scale word 0x3E000000 is a real number. -/
theorem scale_real : ∃ r : ℝ, Ideal.ofBits .f32 0x3E000000#32 = (r : EReal) := by
  simp [Ideal.ofBits, Ideal.ieee]
  exact ⟨_, (EReal.coe_mul _ _).symm⟩

/-- Entry by entry: the reference's product is the kernel's region output read by (batch, head). -/
theorem product_eq (x0 x1 x2 : (⟨3, ![2, 2048, 1024]⟩ : Shape).Idx → EReal)
    (Q K V : Vec Ideal Cert.KernelIdeal.S32x2048x64 .bf16)
    (hQ : ∀ (b : Fin 2) (h : Fin 16) (q : Fin 2048) (d : Fin 64) (bh : Fin 32), bh.val = b.val * 16 + h.val →
      Q (ix3 bh q d) = x0 (headIdx b h q d) * Ideal.ofBits .f32 0x3E000000#32)
    (hK : ∀ (b : Fin 2) (h : Fin 16) (q : Fin 2048) (d : Fin 64) (bh : Fin 32), bh.val = b.val * 16 + h.val →
      K (ix3 bh q d) = x1 (headIdx b h q d))
    (hV : ∀ (b : Fin 2) (h : Fin 16) (q : Fin 2048) (d : Fin 64) (bh : Fin 32), bh.val = b.val * 16 + h.val →
      V (ix3 bh q d) = x2 (headIdx b h q d))
    (h0 : ∀ i, ∃ r : ℝ, x0 i = (r : EReal)) (h1 : ∀ i, ∃ r : ℝ, x1 i = (r : EReal)) (h2 : ∀ i, ∃ r : ℝ, x2 i = (r : EReal)) :
    Cert.ReferenceIdeal.Read.val_main_v20 (F := Ideal) x0 x1 x2 = Cert.KernelIdeal.Host.heads4 (attn Q K V) := by
  funext i
  obtain ⟨b, h, q, d, rfl⟩ : ∃ (b : Fin 2) (h : Fin 16) (q : Fin 2048) (d : Fin 64), i = ix4 b h q d :=
    ⟨i 0, i 1, i 2, i 3, eq_ix4 i⟩
  have hS : ∀ k : Fin 2048, ∃ r : ℝ, Cert.ReferenceIdeal.Rows.score x0 x1 b h q k = (r : EReal) := fun k =>
    Moments.Fin'.mul (Moments.Fin'.sum _ _ fun e _ => Moments.Fin'.mul (h0 _) (h1 _)) scale_real
  have hbh : ((⟨b.val * 16 + h.val, by have := b.isLt; have := h.isLt; omega⟩ : Fin 32)).val = b.val * 16 + h.val := rfl
  rw [Cert.ReferenceIdeal.Rows.out_at]
  unfold Cert.KernelIdeal.Host.heads4
  rw [Cert.LibMergedAxes.shapeCast_ncd_abcd_apply _ _ b h q d ⟨b.val * 16 + h.val, by have := b.isLt; have := h.isLt; omega⟩ hbh]
  show _ = attnRow Q K V ⟨b.val * 16 + h.val, _⟩ q d
  unfold attnRow Cert.ReferenceIdeal.Rows.score
  simp only [hQ b h q _ _ hbh, hK b h _ _ _ hbh, hV b h _ _ _ hbh]
  exact AttentionAgree.agree kvRow (fun _ _ => rfl) (fun e => x0 (headIdx b h q e)) (fun k e => x1 (headIdx b h k e))
    (fun k => x2 (headIdx b h k d)) (Ideal.ofBits .f32 0x3E000000#32) (Cert.ReferenceIdeal.Rows.shift x0 x1 b h q)
    (fun e => h0 _) (fun k e => h1 _) (fun k => h2 _) scale_real (Cert.ReferenceIdeal.Rows.shift_real x0 x1 b h q hS)

end Cert.Agreement

end
-- ==== Proof.LibStraightThrough.lean ====
/-
  Laws on the extended reals for a weight used through the "straight-through" form and for a sigmoid written out.

  • The f32 word 0x3F800000 is the number 1 and the f32 word 0x7F800000 is +∞.
  • An extended real x with |x| = max(x, -x) < +∞ is a real number (the finiteness test a precondition states per entry).
  • For a REAL number w and ANY extended real q:  w + (q - w) = q.  At q = ±∞ both sides are q, because adding or
    subtracting a real leaves an infinity unchanged; so a program that multiplies by  w + (q(w) - w)  multiplies by
    q(w) as soon as w is finite, with nothing asked of q(w).
  • 1 / (1 + e^(-g)) written with the f32 word 1.0 is the sigmoid of g, on every extended real.
-/
import Idealize.ShloMosaic.PureOps.Ideal
import Idealize.ShloMosaic.PureOps.IdealRules

noncomputable section

namespace Cert.LibStraightThrough

open Idealize.ShloMosaic

/-- The f32 word 0x3F800000 is the number 1. -/
theorem one_f32 : Ideal.ofBits .f32 0x3F800000#32 = 1 := IdealRules.sign_bit.ideal_onePat .f32

/-- The f32 word 0x7F800000 is +∞. -/
theorem inf_f32 : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- For a real `w` and any extended real `q`: w + (q - w) = q. -/
theorem add_sub_cancel_real (w : ℝ) (q : EReal) : (w : EReal) + (q - (w : EReal)) = q := by
  induction q with
  | bot => rw [EReal.bot_sub, EReal.add_bot]
  | top => rw [EReal.top_sub_coe, EReal.add_top_of_ne_bot (EReal.coe_ne_bot w)]
  | coe r => rw [← EReal.coe_sub, ← EReal.coe_add]; exact congrArg _ (by ring)

/-- 1 / (1 + e^(-g)) written with the f32 word 1.0 is the sigmoid of g, on every extended real. -/
theorem logistic_spelt (g : EReal) :
    Ideal.div (Ideal.ofBits .f32 0x3F800000#32) (Ideal.ofBits .f32 0x3F800000#32 + Ideal.exp (-g)) = Ideal.logistic g := by
  rw [one_f32]; rfl

end Cert.LibStraightThrough

end
-- ==== Proof.FiniteInputs.lean ====
/-
  What the precondition gives: every entry of the three inputs is a real number.

  The precondition is the conjunction, over the three inputs, of "every entry's absolute value compares below +∞".
  At the exact values an entry is an extended real, and one whose absolute value is below +∞ is neither +∞ nor −∞:
  it is a real.
-/
import Idealize.ShloMosaic.Lib.ReduceAll
import Idealize.ShloMosaic.Lib.ValueIdx
import Idealize.ShloMosaic.Lib.Affine
import Idealize.ShloMosaic.PureOps.Ideal
import proofs.«124789_j68736656605917_2_alg».proof.Pre_finite_inputs
import proofs.«124789_j68736656605917_2_alg».proof.Proof.LibStraightThrough

noncomputable section

namespace Cert.FiniteInputs

open Idealize.ShloMosaic Cert.Pre_finite_inputs

instance : Subsingleton Cert.Pre_finite_inputs.S_.Idx := ⟨fun a b => funext fun d => d.elim0⟩

/-- Under the precondition every entry of every input is a real number. -/
theorem real_entries [hF : Cert.Pre_finite_inputs.Facts] (x0 x1 x2 : FVec Ideal S2x2048x1024 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ValueIdx.ix0
  unfold Cert.Pre_finite_inputs.fn at h'
  dsimp only at h'
  obtain ⟨h01, e2⟩ := IntOp.andi_eq_one.mp h'
  obtain ⟨e0, e1⟩ := IntOp.andi_eq_one.mp h01
  exact ⟨fun i => Cert.LibStraightThrough.real_of_abs_lt_inf (x0 i) (Host.reduce_andi_all _ _ _ _ ValueIdx.ix0 e0 i),
    fun i => Cert.LibStraightThrough.real_of_abs_lt_inf (x1 i) (Host.reduce_andi_all _ _ _ _ ValueIdx.ix0 e1 i),
    fun i => Cert.LibStraightThrough.real_of_abs_lt_inf (x2 i) (Host.reduce_andi_all _ _ _ _ ValueIdx.ix0 e2 i)⟩

end Cert.FiniteInputs

end
-- ==== Proof.lean ====
/-
  Multi-head attention computed block by block with a running softmax equals attention computed in one pass.

  The kernel scales the queries by 0.125, lays queries, keys and values out by heads, and for every head and every
  block of 512 query rows runs over the four blocks of 512 key/value rows keeping, per query row, a running shift, a
  running sum of exponentials and a running weighted sum of value rows; after the fourth block it writes the
  quotient. The reference forms all 2048 scores of a row at once, scales them by 0.125, subtracts their maximum,
  exponentiates, normalises and multiplies with the values. Read at the exact values and on inputs whose entries are
  real numbers (the precondition), both results are, at every (batch, row, 64·head + lane), the
  exponential-weighted mean  (Σ_k exp s(k) · v(k)) / (Σ_k exp s(k))  of the head's value rows, s(k) the scaled score
  of the query row against key row k: the running shift cancels between the two running sums whatever it is, the
  reference's shift cancels in its quotient, and a scale moves across a finite sum of reals.

  The modules: LibOnlineSoftmax (the running softmax on the extended reals), BodyPieces and CarriedState (what the
  kernel's body leaves at each grid point, and over a group of four points), BodyRows (the body's arithmetic row by
  row), OutputArray (the region's output array as one function of its input arrays), KernelHost (the host layout
  before and after the region, and the kernel's run), ReferenceRows (the reference row by row), FiniteInputs (the
  precondition gives real entries), AttentionAgree and Agreement (the two sides agree).
-/
import proofs.«124789_j68736656605917_2_alg».proof.Defs
import proofs.«124789_j68736656605917_2_alg».proof.Proof.Gen.Kernel
import proofs.«124789_j68736656605917_2_alg».proof.Proof.Gen.Kernel.Frame
import proofs.«124789_j68736656605917_2_alg».proof.Proof.Gen.KernelIdeal
import proofs.«124789_j68736656605917_2_alg».proof.Proof.Gen.KernelIdeal.Frame
import proofs.«124789_j68736656605917_2_alg».proof.Proof.Gen.ReferenceIdeal
import proofs.«124789_j68736656605917_2_alg».proof.Proof.Gen.ReferenceIdeal.Run
import proofs.«124789_j68736656605917_2_alg».proof.Proof.Gen.Pre_finite_inputs
import proofs.«124789_j68736656605917_2_alg».proof.Proof.Agreement
import proofs.«124789_j68736656605917_2_alg».proof.Proof.FiniteInputs
import Idealize.ShloMosaic.Adequacy
import Idealize.ShloMosaic.Init

noncomputable section

namespace Cert.Proof

open Idealize.ShloMosaic Idealize.SL.Sem

/-- Every weakly fair execution of the kernel as printed terminates without a fault, its arguments unchanged. -/
theorem frame_k : Cert.frame_Kernel := fun m ρ _ => Cert.Kernel.Gen.frame m ρ

/-- The same for the kernel read at the exact values. -/
theorem frame_ki : Cert.frame_KernelIdeal := fun m ρ _ => Cert.KernelIdeal.Gen.frame m ρ

/-- The reference runs to its composed term; its arguments are unchanged. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the exact reading. -/
theorem preserves : Cert.preserves_Kernel_KernelIdeal := trivial

/-- From memories agreeing on the three arguments, whose entries are real numbers, both programs end with the same
    result on every core: the final layout of the same (batch, head, row, lane) array. -/
theorem algebraic : Cert.algebraic_KernelIdeal_ReferenceIdeal := by
  intro m ρ m' ρ' hpre hagree
  refine ⟨fun c => Cert.KernelIdeal.Host.result m c, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.FiniteInputs.real_entries _ _ _ (hpre c)
  rw [(hagree c).1, (hagree c).2.1, (hagree c).2.2, Cert.ReferenceIdeal.Read.val_main_v22_eq]
  unfold Cert.ReferenceIdeal.Read.val_main_v22 Cert.ReferenceIdeal.Read.val_main_v21
  rw [Cert.Agreement.product_eq _ _ _ (Cert.KernelIdeal.Output.Qa m c) (Cert.KernelIdeal.Output.Ka m c) (Cert.KernelIdeal.Output.Va m c)
    (fun b h q d bh hbh => Cert.KernelIdeal.Host.Qa_at m c b h q d bh hbh)
    (fun b h q d bh hbh => Cert.KernelIdeal.Host.Ka_at m c b h q d bh hbh)
    (fun b h q d bh hbh => Cert.KernelIdeal.Host.Va_at m c b h q d bh hbh) r0 r1 r2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
